-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S512x4096 : Shape := ⟨2, ![512, 4096]⟩
abbrev S512 : Shape := ⟨1, ![512]⟩
abbrev S512x1 : Shape := ⟨2, ![512, 1]⟩
abbrev S8192x4096 : Shape := ⟨2, ![8192, 4096]⟩
abbrev S1x4096 : Shape := ⟨2, ![1, 4096]⟩
abbrev S1024x512 : Shape := ⟨2, ![1024, 512]⟩
abbrev S2048x512 : Shape := ⟨2, ![2048, 512]⟩
abbrev S1x2048 : Shape := ⟨2, ![1, 2048]⟩
abbrev S1024x2048 : Shape := ⟨2, ![1024, 2048]⟩

abbrev nBuf : Space → Nat
  | .hbm => 8
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S8192x4096, .f32⟩
  | .hbm, ⟨5, _⟩ => ⟨S1x4096, .f32⟩
  | .hbm, ⟨6, _⟩ => ⟨S8192x4096, .f32⟩
  | .hbm, ⟨7, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | .local _ .vmem, ⟨6, _⟩ => ⟨S2048x512, .bf16⟩
  | .local _ .vmem, ⟨7, _⟩ => ⟨S2048x512, .bf16⟩
  | .local _ .vmem, ⟨8, _⟩ => ⟨S1x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![8, 2, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  broadcasts_S512x1_S512x4096 : S512x1.Broadcasts S512x4096
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  shapeCasts_S4x2048x4096_S8192x4096 : S4x2048x4096.ShapeCasts S8192x4096
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S8192x4096_S4x2048x4096 : S8192x4096.ShapeCasts S4x2048x4096
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .f32 = 32 ∨ (Rect.block (s := S8192x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x4096.size a
  hwx1_1 : ∀ i : grid1.Coords, EltTy.bits .bf16 = 32 ∨ (Rect.block (s := S4096x4096) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S8192x4096.size a
  hwx1_3 : ∀ i : grid1.Coords, EltTy.bits .f32 = 32 ∨ (Rect.block (s := S8192x4096) S1024x2048.size (cc1_transform_3 i) (hinb1_3 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x1x4096 : Shape := ⟨3, ![1, 1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .i1⟩
  | .hbm, ⟨15, _⟩ => ⟨S4096x1, .f32⟩
  | .hbm, ⟨16, _⟩ => ⟨S4096x4096, .f32⟩
  | .hbm, ⟨17, _⟩ => ⟨S4096x4096, .i1⟩
  | .hbm, ⟨18, _⟩ => ⟨S_, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4x2048x4096, .f32⟩
  | .hbm, ⟨30, _⟩ => ⟨S1x1x4096, .f32⟩
  | .hbm, ⟨31, _⟩ => ⟨S4x2048x4096, .f32⟩
  | .hbm, ⟨32, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v12 : Ref sig .tc := ⟨.hbm, 22, rfl⟩
abbrev main_cst_4 : Ref sig .tc := ⟨.hbm, 23, rfl⟩
abbrev main_call1_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.KernelRun.lean ====
/-
  The idealized kernel's run with its result named.

  The program is four segments: the quantization call, two reshapes on the host, the matrix-product call, one
  reshape on the host. The contents of the core's buffers at the four boundaries are a fold from the launch memory;
  every weakly fair execution terminates with every unscoped buffer at the last boundary's contents. Here that last
  state is read at the result buffer as well as at the three argument buffers.
-/
import proofs.«105852_j74474732912767_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the three arguments as launched. -/
theorem run : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.Whole

end
-- ==== Proof.AccPieces.lean ====
/-
  What one grid point of the matrix-product call leaves in the output block's buffer, in each of its three cases.

  The grid point (i, j, k) works on the output block (i, j) and the k-th slice of 512 columns of both operands. At
  k = 0 the body first stores zeros and then the zeros plus the product of the two slices; at 0 < k < 7 it stores
  what the buffer held plus the product; at k = 7 it stores that and then adds the bias row to it. Each store covers
  the whole buffer, so the buffer ends holding the last store's value, and a load after a covering store reads that
  store's value.
-/
import proofs.«105852_j74474732912767_2_alg».proof.Proof.Gen.KernelIdeal.Frame
import Idealize.ShloMosaic.Lib.Pipeline.Value
import Idealize.ShloMosaic.Lib.Tactic

noncomputable section

namespace Cert.KernelIdeal.Acc

open Cert.KernelIdeal Cert.KernelIdeal.Gen
open Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- A middle point (0 < k < 7): the buffer held `xo`; it ends holding `xo` plus the product of the two slices. -/
theorem out_mid (c : Dev nD) (i : grid1.Coords) (a3 : Memref sig .tc .vmem S1024x512 .f32) (h3 : a3.IsWhole)
    (a4 : Memref sig .tc .vmem S2048x512 .bf16) (h4 : a4.IsWhole) (a5 : Memref sig .tc .vmem S1x2048 .f32) (h5 : a5.IsWhole)
    (a6 : Memref sig .tc .vmem S1024x2048 .f32) (h6 : a6.IsWhole) (hc0 : ¬cond1_0 i) (hc1 : ¬cond1_1 i)
    (x0 : Vec F S1024x512 .f32) (x1 : Vec F S2048x512 .bf16) (x2 : Vec F S1x2048 .f32) (xo : Vec F S1024x2048 .f32) :
    out1_B_3 c i a3 h3 a4 h4 a5 h5 a6 h6 hc0 hc1 x0 x1 x2 xo = k1_pay2 x0 x1 xo := by
  unfold out1_B_3
  rw [View.read_writes_eq_canon _ _ _ (cover1_B_3 c i a3 h3 a4 h4 a5 h5 a6 h6 hc0 hc1 x0 x1 x2 xo)]
  unfold kernelRun1_B
  dsimp only
  rw [View.canon_unit_zero hz]
  simp only [View.readAt_eq_ld, h3.read_unread, h4.read_unread, h6.read_unread,
    View.ld_unit_zero (S := S1024x512) hz, View.ld_unit_zero (S := S2048x512) hz, View.ld_unit_zero (S := S1024x2048) hz]

/-- The first point (k = 0): the buffer ends holding the zero block plus the product of the two slices. -/
theorem out_first (c : Dev nD) (i : grid1.Coords) (a3 : Memref sig .tc .vmem S1024x512 .f32) (h3 : a3.IsWhole)
    (a4 : Memref sig .tc .vmem S2048x512 .bf16) (h4 : a4.IsWhole) (a5 : Memref sig .tc .vmem S1x2048 .f32) (h5 : a5.IsWhole)
    (a6 : Memref sig .tc .vmem S1024x2048 .f32) (h6 : a6.IsWhole) (hc0 : cond1_0 i) (hc1 : ¬cond1_1 i)
    (x0 : Vec F S1024x512 .f32) (x1 : Vec F S2048x512 .bf16) (x2 : Vec F S1x2048 .f32) :
    out1_A_3 c i a3 h3 a4 h4 a5 h5 a6 h6 hc0 hc1 x0 x1 x2 = k1_pay2 x0 x1 (k1_pay1 (F := F)) := by
  unfold out1_A_3
  rw [View.read_writes_eq_canon _ _ _ (cover1_A_3 c i a3 h3 a4 h4 a5 h5 a6 h6 hc0 hc1 x0 x1 x2)]
  unfold kernelRun1_A
  dsimp only
  sl_unfold_words
  rw [View.canon_cons_unit_zero (S := S1024x2048) hz, View.readCov_unit_zero (S := S1024x2048) _ hz]
  simp only [View.readAt_eq_ld, h3.read_unread, h4.read_unread,
    View.ld_unit_zero (S := S1024x512) hz, View.ld_unit_zero (S := S2048x512) hz, View.ld_unit_zero (S := S1024x2048) hz]

/-- The last point (k = 7): the buffer held `xo`; it ends holding `xo` plus the product, plus the bias row. -/
theorem out_last (c : Dev nD) (i : grid1.Coords) (a3 : Memref sig .tc .vmem S1024x512 .f32) (h3 : a3.IsWhole)
    (a4 : Memref sig .tc .vmem S2048x512 .bf16) (h4 : a4.IsWhole) (a5 : Memref sig .tc .vmem S1x2048 .f32) (h5 : a5.IsWhole)
    (a6 : Memref sig .tc .vmem S1024x2048 .f32) (h6 : a6.IsWhole) (hc0 : ¬cond1_0 i) (hc1 : cond1_1 i)
    (x0 : Vec F S1024x512 .f32) (x1 : Vec F S2048x512 .bf16) (x2 : Vec F S1x2048 .f32) (xo : Vec F S1024x2048 .f32) :
    out1_C_3 c i a3 h3 a4 h4 a5 h5 a6 h6 hc0 hc1 x0 x1 x2 xo = k1_pay3 (k1_pay2 x0 x1 xo) x2 := by
  unfold out1_C_3
  rw [View.read_writes_eq_canon _ _ _ (cover1_C_3 c i a3 h3 a4 h4 a5 h5 a6 h6 hc0 hc1 x0 x1 x2 xo)]
  unfold kernelRun1_C
  dsimp only
  sl_unfold_words
  rw [View.canon_cons_unit_zero (S := S1024x2048) hz, View.readCov_unit_zero (S := S1024x2048) _ hz]
  simp only [View.readAt_eq_ld, h3.read_unread, h4.read_unread, h5.read_unread, h6.read_unread,
    View.ld_unit_zero (S := S1024x512) hz, View.ld_unit_zero (S := S2048x512) hz, View.ld_unit_zero (S := S1024x2048) hz,
    View.ld_unit_zero (S := S1x2048) hz]

end Cert.KernelIdeal.Acc

end
-- ==== Proof.LibBlockOps.lean ====
/-
  General lemmas: the operations of a field-wise product of embeddings, read at an index written with `ix2` / `ix3`,
  at the ideal values.

  * an `[a, b]` array cast to `[a, b, 1]` and an `[a, b, 1]` array broadcast over `c` lanes (a per-field scalar spread
    along the embedding axis);
  * the sum over the MIDDLE axis of an `[a, b, c]` array as a sum over `Fin b`;
  * a slab of an `[a, b, c]` array cut along axis 0, and an `[a, 1, c]` array cast to `[a, c]`;
  * a matrix product `[a, k] × [b, k]` contracting both operands' LAST axes into a zero accumulator, as the sum over
    `Fin k` of the products;
  * the host's sum over the last axis of an `[a, b]` array and over the middle axis of an `[a, b, c]` array, from a
    rank-zero initial value, as that value plus the sum over the axis;
  * one field's contribution: the product of field `o`'s `[a, c]` slab of an `[a, b, c]` array with field `o`'s
    `[n, c]` slab of a `[b, n, c]` array, as the sum over the embedding axis.
  Nothing here mentions a program: the extents are variables and the dimension records are hypotheses.
-/
import Idealize.ShloMosaic.Lib.ValueLayout
import Idealize.ShloMosaic.Lib.ValueIdx
import Idealize.ShloMosaic.PureOps.Ideal.Laws

noncomputable section

namespace Cert.LibBlockOps

open Idealize.ShloMosaic Idealize.ShloMosaic.ValueIdx

variable {α : Type}

/-- An `[a, b]` array cast to `[a, b, 1]` reads, at `(p, f, u)`, the operand at `(p, f)`. -/
theorem shapeCast_ab_ab1_apply {a b : ℕ} (x : (⟨2, ![a, b]⟩ : Shape).Idx → α)
    (h : (⟨2, ![a, b]⟩ : Shape).ShapeCasts ⟨3, ![a, b, 1]⟩) (p : Fin a) (f : Fin b) (u : Fin 1) :
    shapeCast ⟨3, ![a, b, 1]⟩ x h (ix3 p f u) = x (ix2 p f) :=
  shapeCast_apply x h _ _ (by
    have hu : u.val = 0 := by omega
    rw [Shape.rowMajor_val_two, Shape.rowMajor_val_three]
    show p.val * b + f.val = (p.val * b + f.val) * 1 + u.val
    rw [hu, Nat.mul_one, Nat.add_zero])

/-- An `[a, b, 1]` array broadcast to `[a, b, c]` reads, at `(p, f, k)`, the operand at `(p, f, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (f : Fin b) (k : Fin c) :
    broadcastTo ⟨3, ![a, b, c]⟩ v h (ix3 p f k) = v (ix3 p f (0 : Fin 1)) := by
  refine broadcastTo_apply v h (ix3 p f k) (ix3 p f (0 : Fin 1)) fun ax => ?_
  match ax with
  | ⟨0, _⟩ =>
    show p.val = if a = 1 then 0 else p.val
    split
    · have := p.isLt; omega
    · rfl
  | ⟨1, _⟩ =>
    show f.val = if b = 1 then 0 else f.val
    split
    · have := f.isLt; omega
    · rfl
  | ⟨2, _⟩ => rfl

/-- The reduced index `(p, k)` of an `[a, b, c]` array with coordinate `f` put back on axis 1 is `(p, f, k)`. -/
theorem lift_mid {a b c : ℕ} (h : (⟨3, ![a, b, c]⟩ : Shape).Reduces [1] (⟨2, ![a, c]⟩ : Shape)) (p : Fin a) (k : Fin c)
    (f : Fin ((⟨3, ![a, b, c]⟩ : Shape).size 1)) : h.lift (ix2 p k) f = ix3 p (⟨f.val, f.isLt⟩ : Fin b) k := by
  funext ax; apply Fin.ext
  fin_cases ax <;> rfl

/-- The sum over the middle axis of an `[a, b, c]` array, read at `(p, k)`: the sum over `f` of the entries `(p, f, k)`. -/
theorem midSum_apply {a b c : ℕ} (src : FVec Ideal ⟨3, ![a, b, c]⟩ .f32) (acc : BitVec 32)
    (h : (⟨3, ![a, b, c]⟩ : Shape).Reduces [1] (⟨2, ![a, c]⟩ : Shape)) (hφ : FKind.Formats .f32)
    (hacc : acc = FKind.add.neutral .f32 hφ) (p : Fin a) (k : Fin c) :
    multiReduction .add [1] ⟨2, ![a, c]⟩ src acc h hφ hacc (ix2 p k) = ∑ f : Fin b, src (ix3 p f k) := by
  refine (Ideal.multiReduction_add_single src acc h hφ hacc (ix2 p k)).trans ?_
  exact Finset.sum_congr rfl fun f _ => congrArg src (lift_mid h p k f)

/-- The reduced index `p` of an `[a, b]` array with lane `c` put back on axis 1 is `(p, c)`. -/
theorem lift_last {a b : ℕ} (h : (⟨2, ![a, b]⟩ : Shape).Reduces [1] (⟨1, ![a]⟩ : Shape)) (p : Fin a)
    (c : Fin ((⟨2, ![a, b]⟩ : Shape).size 1)) : h.lift (ix1 p) c = ix2 p (⟨c.val, c.isLt⟩ : Fin b) := by
  funext ax; apply Fin.ext
  fin_cases ax <;> rfl

/-- The host's sum over the last axis of an `[a, b]` array, read at row `p`: the initial value plus the row's sum. -/
theorem hostLastSum_apply {a b : ℕ} (x : FVec Ideal ⟨2, ![a, b]⟩ .f32) (init : (⟨0, ![]⟩ : Shape).Idx → Ideal .f32)
    (h' : (⟨2, ![a, b]⟩ : Shape).ReducesTo [1] (⟨1, ![a]⟩ : Shape)) (hu : 0 < (⟨0, ![]⟩ : Shape).numel) (p : Fin a) :
    Host.reduceAdd x init h' hu (ix1 p) = init ix0 + ∑ c : Fin b, x (ix2 p c) := by
  have h : (⟨2, ![a, b]⟩ : Shape).Reduces [1] (⟨1, ![a]⟩ : Shape) := ⟨h'.1, Nat.one_pos, h'.2⟩
  show Ideal.hostReduceAdd h' x (init (Shape.Idx.first hu)) (ix1 p) = _
  rw [Ideal.hostReduceAdd_single h' h, show Shape.Idx.first hu = ix0 from eq_ix0 _]
  exact congrArg (init ix0 + ·) (Finset.sum_congr rfl fun c _ => congrArg x (lift_last h p c))

/-- The host's sum over the middle axis of an `[a, b, c]` array, read at `(p, k)`: the initial value plus the sum over
    `f` of the entries `(p, f, k)`. -/
theorem hostMidSum_apply {a b c : ℕ} (x : FVec Ideal ⟨3, ![a, b, c]⟩ .f32) (init : (⟨0, ![]⟩ : Shape).Idx → Ideal .f32)
    (h' : (⟨3, ![a, b, c]⟩ : Shape).ReducesTo [1] (⟨2, ![a, c]⟩ : Shape)) (hu : 0 < (⟨0, ![]⟩ : Shape).numel)
    (p : Fin a) (k : Fin c) :
    Host.reduceAdd x init h' hu (ix2 p k) = init ix0 + ∑ f : Fin b, x (ix3 p f k) := by
  have h : (⟨3, ![a, b, c]⟩ : Shape).Reduces [1] (⟨2, ![a, c]⟩ : Shape) := ⟨h'.1, Nat.succ_pos 1, h'.2⟩
  show Ideal.hostReduceAdd h' x (init (Shape.Idx.first hu)) (ix2 p k) = _
  rw [Ideal.hostReduceAdd_single h' h, show Shape.Idx.first hu = ix0 from eq_ix0 _]
  exact congrArg (init ix0 + ·) (Finset.sum_congr rfl fun f _ => congrArg x (lift_mid h p k f))

/-- A rank-3 array cut along axis 0 from `o` reads, at `(j, b, e)`, the source at `(k, b, e)` with `k = o + j`. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

/-- An `[a, 1, c]` array cast to `[a, c]` reads, at `(p, k)`, the operand at `(p, 0, k)`. -/
theorem shapeCast_a1c_ac_apply {a c : ℕ} (x : (⟨3, ![a, 1, c]⟩ : Shape).Idx → α)
    (h : (⟨3, ![a, 1, c]⟩ : Shape).ShapeCasts ⟨2, ![a, c]⟩) (p : Fin a) (k : Fin c) :
    shapeCast ⟨2, ![a, c]⟩ x h (ix2 p k) = x (ix3 p (0 : Fin 1) k) :=
  shapeCast_apply x h _ _ (by
    rw [Shape.rowMajor_val_three, Shape.rowMajor_val_two]
    show (p.val * 1 + 0) * c + k.val = p.val * c + k.val
    rw [Nat.mul_one, Nat.add_zero])

/-- A matrix product of an `[a, k]` by a `[b, k]` array into the zero accumulator, whose dimension record contracts the
    LAST axis of each operand (the four coordinate facts), is at `(p, j)` the sum over `q` of `L (p, q) · R (j, q)`. -/
theorem matmul_zero_nt_ix2 {a k b : ℕ} {φ₁ φ₂ : FTy} (D : DotDims ⟨2, ![a, k]⟩ ⟨2, ![b, k]⟩ ⟨2, ![a, b]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (prec : Option ContractPrecision) (L : FVec Ideal ⟨2, ![a, k]⟩ φ₁) (R : FVec Ideal ⟨2, ![b, k]⟩ φ₂) (p : Fin a) (j : Fin b) :
    FloatOps.matmul D prec L R (constant ⟨2, ![a, b]⟩ .f32 0x00000000#32) (ix2 p j) = ∑ q : Fin k, L (ix2 p q) * R (ix2 j q) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 j q := funext fun ax => Fin.ext (by
    match ax with
    | ⟨0, _⟩ => exact hr0 _ _
    | ⟨1, _⟩ => exact (hr1 _ _).trans hq)
  rw [el, er]

/-- One field's contribution to a field-by-field product: field `o`'s `[a, c]` slab of `E : [a, b, c]` times field `o`'s
    `[n, c]` slab of `W : [b, n, c]`, contracted over the embedding axis into a zero accumulator, is at `(p, j)` the sum
    over `q` of `E (p, o, q) · W (o, j, q)`. -/
theorem fieldStep_apply {a b c n : ℕ} {φ₁ φ₂ : FTy} (D : DotDims ⟨2, ![a, c]⟩ ⟨2, ![n, c]⟩ ⟨2, ![a, n]⟩)
    (hr : D.contr.rank = 1) (hs : D.contr.size ⟨0, by omega⟩ = c)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (prec : Option ContractPrecision) (E : FVec Ideal ⟨3, ![a, b, c]⟩ φ₁) (W : FVec Ideal ⟨3, ![b, n, c]⟩ φ₂) (o : ℕ) (ho : o < b)
    (h1 : (⟨3, ![a, b, c]⟩ : Shape).Slices ![0, o, 0] ⟨3, ![a, 1, c]⟩) (c1 : (⟨3, ![a, 1, c]⟩ : Shape).ShapeCasts ⟨2, ![a, c]⟩)
    (h2 : (⟨3, ![b, n, c]⟩ : Shape).Slices ![o, 0, 0] ⟨3, ![1, n, c]⟩) (c2 : (⟨3, ![1, n, c]⟩ : Shape).ShapeCasts ⟨2, ![n, c]⟩)
    (p : Fin a) (j : Fin n) :
    FloatOps.matmul D prec (shapeCast ⟨2, ![a, c]⟩ (extractStridedSlice ⟨3, ![a, 1, c]⟩ ![0, o, 0] E h1) c1)
        (shapeCast ⟨2, ![n, c]⟩ (extractStridedSlice ⟨3, ![1, n, c]⟩ ![o, 0, 0] W h2) c2)
        (constant ⟨2, ![a, n]⟩ .f32 0x00000000#32) (ix2 p j)
      = ∑ q : Fin c, E (ix3 p ⟨o, ho⟩ q) * W (ix3 ⟨o, ho⟩ j q) := by
  rw [matmul_zero_nt_ix2 D hr hs hl0 hl1 hr0 hr1]
  refine Finset.sum_congr rfl fun q _ => ?_
  rw [shapeCast_a1c_ac_apply, shapeCast_1ab_ab_apply,
    slice3_axis1_apply o E h1 p (0 : Fin 1) q ⟨o, ho⟩ rfl, slice3_axis0_apply o W h2 (0 : Fin 1) j q ⟨o, ho⟩ rfl]

end Cert.LibBlockOps

end
-- ==== Proof.AccPay.lean ====
/-
  The three stored values of the matrix-product body, read at an index on the extended reals.

  Rounding the left slice to half precision is the identity here, a cast between equal shapes is the identity, and a
  product of a [1024, 512] slice with a [2048, 512] slice contracting both last axes into a zero accumulator is, at
  (r, c), the sum over q of left(r, q) * right(c, q). So the middle store is old(r, c) + sum_q left(r, q) * right(c, q),
  the first store is that with the zero word for old, and the last store adds the bias row's entry c.
-/
import proofs.«105852_j74474732912767_2_alg».proof.Proof.Gen.KernelIdeal.Skeleton
import proofs.«105852_j74474732912767_2_alg».proof.Proof.LibBlockOps
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Acc

open Cert.KernelIdeal Cert.KernelIdeal.Gen
open Idealize.ShloMosaic Idealize.ShloMosaic.ValueIdx

/-- The product's dimension record: its one contracted axis has 512 positions; the left operand's index at output
    (r, c) and position q is (r, q), the right operand's is (c, q). -/
abbrev DD : DotDims S1024x512 S2048x512 S1024x2048 := dot_S1024x512_S2048x512_S1024x2048_1_1_0_0_n_n

theorem dd_l0 (i : S1024x2048.Idx) (q : DD.contr.Idx) : (DD.lhsIdx i q 0).val = (i 0).val := by
  unfold DotDims.lhsIdx
  rw [dif_neg (show ¬(0 : Fin S1024x512.rank) ∈ DD.lhsBatch by decide), dif_pos (show (0 : Fin S1024x512.rank) ∈ DD.lhsNonContracting by decide)]
  rfl
theorem dd_l1 (i : S1024x2048.Idx) (q : DD.contr.Idx) : (DD.lhsIdx i q 1).val = (q ⟨0, by decide⟩).val :=
  DD.lhsIdx_val_of_single rfl i q
theorem dd_r0 (i : S1024x2048.Idx) (q : DD.contr.Idx) : (DD.rhsIdx i q 0).val = (i 1).val := by
  unfold DotDims.rhsIdx
  rw [dif_neg (show ¬(0 : Fin S2048x512.rank) ∈ DD.rhsBatch by decide), dif_pos (show (0 : Fin S2048x512.rank) ∈ DD.rhsNonContracting by decide)]
  rfl
theorem dd_r1 (i : S1024x2048.Idx) (q : DD.contr.Idx) : (DD.rhsIdx i q 1).val = (q ⟨0, by decide⟩).val :=
  DD.rhsIdx_val_of_single rfl i q

/-- The zero block. -/
theorem pay1_apply (y : S1024x2048.Idx) : k1_pay1 (F := Ideal) y = Ideal.ofBits .f32 0x00000000#32 := rfl

/-- The accumulating store at (r, c): what the buffer held there plus the product of row r of the left slice with
    row c of the right slice. -/
theorem pay2_apply (x0 : Vec Ideal S1024x512 .f32) (x1 : Vec Ideal S2048x512 .bf16) (xo : Vec Ideal S1024x2048 .f32)
    (r : Fin 1024) (cc : Fin 2048) :
    k1_pay2 x0 x1 xo (ix2 r cc) = xo (ix2 r cc) + ∑ q : Fin 512, x0 (ix2 r q) * x1 (ix2 cc q) := by
  unfold k1_pay2
  rw [addf_apply, shapeCast_self]
  refine congrArg (xo (ix2 r cc) + ·) ?_
  refine (Cert.LibBlockOps.matmul_zero_nt_ix2 (a := 1024) (k := 512) (b := 2048) DD rfl rfl dd_l0 dd_l1 dd_r0 dd_r1 none _ _ r cc).trans ?_
  refine Finset.sum_congr rfl fun q _ => ?_
  rw [truncf_apply, shapeCast_self, shapeCast_self]

/-- The last store at (r, c): the accumulated value there plus the bias row's entry c. -/
theorem pay3_apply (v16 : Vec Ideal S1024x2048 .f32) (v18 : Vec Ideal S1x2048 .f32) (r : Fin 1024) (cc : Fin 2048) :
    k1_pay3 v16 v18 (ix2 r cc) = v16 (ix2 r cc) + v18 (ix2 (0 : Fin 1) cc) := by
  unfold k1_pay3
  rw [addf_apply, shapeCast_self, shapeCast_self]
  exact congrArg (v16 (ix2 r cc) + ·) (broadcastTo_1b_ab_apply v18 _ r cc)

end Cert.KernelIdeal.Acc

end
-- ==== Proof.LibBlockSum.lean ====
/-
  General lemmas: a sum over J·K consecutive naturals, cut into J consecutive blocks of K.

  In a commutative additive monoid (the extended reals are one: their sum is commutative and associative, also at the
  infinities) the sum of g over 0 … J·K − 1 is the sum, over the blocks s = 0 … J − 1, of the sum of g over the block's
  K members s·K + 0 … s·K + (K − 1). `sum_range_blocks` states it over ranges of naturals, `sum_fin_blocks` with the
  members of a block and the whole index set as finite types, the form in which a contraction blocked along its
  summation axis meets the unblocked contraction.
-/
import Mathlib.Algebra.BigOperators.Fin

namespace Cert.LibBlockSum

open scoped BigOperators

variable {β : Type*} [AddCommMonoid β]

/-- The J blocks of K consecutive naturals exhaust 0 … J·K − 1: the sum block by block is the whole sum. -/
theorem sum_range_blocks (g : ℕ → β) (J K : ℕ) :
    ∑ s ∈ Finset.range J, ∑ k ∈ Finset.range K, g (s * K + k) = ∑ n ∈ Finset.range (J * K), g n := by
  induction J with
  | zero => simp
  | succ J ih => rw [Finset.sum_range_succ, ih, Nat.succ_mul, Finset.sum_range_add]

/-- The same with each block's members and the whole index set as finite types. -/
theorem sum_fin_blocks (g : ℕ → β) (J K : ℕ) :
    ∑ s ∈ Finset.range J, ∑ k : Fin K, g (s * K + k.val) = ∑ n : Fin (J * K), g n.val := by
  rw [← Finset.sum_range (fun n => g n), ← sum_range_blocks]
  exact Finset.sum_congr rfl fun s _ => (Finset.sum_range (fun k => g (s * K + k))).symm

end Cert.LibBlockSum
-- ==== Proof.Spec.lean ====
/-
  The function both programs compute, index by index on the extended reals.

  A weight matrix W of 4096 rows and 4096 columns is replaced, row by row, by a matrix of the three values 1, -1, 0:
  row o has the threshold t(o) = c * (|W(o,0)| + ... + |W(o,4095)|) / 4096, with c the single-precision number
  nearest 7/10 (kept as its binary word: both programs carry the same word), and entry (o, d) becomes 1 when
  W(o,d) > t(o), -1 when W(o,d) < -t(o), and 0 otherwise. The result at (b, s, o) is the inner product of the row
  X(b, s, ·) with the ternary row o, plus the bias B(o).

  Two laws join the ways this is computed. A sum over 8 * 512 consecutive indices is the sum over 8 blocks of the sums
  over each block's 512 members (addition of extended reals is commutative and associative, also at the
  infinities). And for a REAL number w and any extended real q, w + (q - w) = q: the detour through w of a
  straight-through estimator cancels exactly when w is finite.
-/
import Idealize.ShloMosaic.PureOps.Ideal.Laws
import Idealize.ShloMosaic.Lib.ValueIdx
import proofs.«105852_j74474732912767_2_alg».proof.Proof.LibBlockSum

noncomputable section

namespace Cert.Ternary

open Idealize.ShloMosaic Idealize.ShloMosaic.ValueIdx

/-- The weight matrix's, the input's and the bias's shapes. -/
abbrev SW : Shape := ⟨2, ![4096, 4096]⟩
abbrev SX : Shape := ⟨3, ![4, 2048, 4096]⟩
abbrev SB : Shape := ⟨1, ![4096]⟩

/-- Row `o`'s threshold: the word of 0.7 times the mean of the row's absolute values. -/
def thr (W : SW.Idx → EReal) (o : Fin 4096) : EReal :=
  Ideal.ofBits .f32 0x3F333333#32
    * Ideal.div (∑ d : Fin 4096, max (W (ix2 o d)) (-(W (ix2 o d)))) (Ideal.ofBits .f32 0x45800000#32)

/-- The ternary value of entry `(o, d)`: 1 above the row's threshold, -1 below its negation, 0 between. -/
def tq (W : SW.Idx → EReal) (o d : Fin 4096) : EReal :=
  Scalar.select (Ideal.cmp .ogt (W (ix2 o d)) (thr W o)) (Ideal.ofBits .f32 0x3F800000#32)
    (Scalar.select (Ideal.cmp .olt (W (ix2 o d)) (-(thr W o))) (Ideal.ofBits .f32 0xBF800000#32)
      (Ideal.ofBits .f32 0x00000000#32))

/-- The ternary matrix as an array. -/
def quant (W : SW.Idx → EReal) : SW.Idx → EReal := fun i => tq W (i 0) (i 1)

theorem quant_ix2 (W : SW.Idx → EReal) (o d : Fin 4096) : quant W (ix2 o d) = tq W o d := rfl

/-- The result: at `(b, s, o)` the inner product of row `(b, s)` of `X` with the ternary row `o`, plus the bias. -/
def G (X : SX.Idx → EReal) (W : SW.Idx → EReal) (B : SB.Idx → EReal) : SX.Idx → EReal :=
  fun i => (∑ d : Fin 4096, X (ix3 (i 0) (i 1) d) * tq W (i 2) d) + B (ix1 (i 2))

theorem G_ix3 (X : SX.Idx → EReal) (W : SW.Idx → EReal) (B : SB.Idx → EReal) (b : Fin 4) (s : Fin 2048) (o : Fin 4096) :
    G X W B (ix3 b s o) = (∑ d : Fin 4096, X (ix3 b s d) * tq W o d) + B (ix1 o) := rfl

/-- For a real `w` and any extended real `q`, `w + (q - w) = q`. -/
theorem real_add_sub_cancel (w : ℝ) (q : EReal) : (w : EReal) + (q - (w : EReal)) = q := by
  induction q using EReal.rec with
  | bot => simp
  | top => simp
  | coe r => rw [← EReal.coe_sub, ← EReal.coe_add]; exact congrArg _ (by ring)

/-- The inner product over 4096 = 8 * 512 indices, taken block by block: the running value after `n` blocks of 512,
    from the zero word. -/
def runsum (f : ℕ → EReal) (n : ℕ) : EReal :=
  Ideal.ofBits .f32 0x00000000#32 + ∑ s ∈ Finset.range n, ∑ q : Fin 512, f (s * 512 + q.val)

theorem runsum_zero (f : ℕ → EReal) : runsum f 0 = Ideal.ofBits .f32 0x00000000#32 := by
  unfold runsum; rw [Finset.sum_range_zero, add_zero]

theorem runsum_succ (f : ℕ → EReal) (n : ℕ) : runsum f (n + 1) = runsum f n + ∑ q : Fin 512, f (n * 512 + q.val) := by
  unfold runsum; rw [Finset.sum_range_succ, add_assoc]

/-- After all 8 blocks the running value is the whole sum. -/
theorem runsum_eight (f : ℕ → EReal) : runsum f 8 = ∑ d : Fin 4096, f d.val := by
  unfold runsum
  rw [Ideal.ofBits_zero_f32, zero_add]
  exact Cert.LibBlockSum.sum_fin_blocks f 8 512

end Cert.Ternary

end
-- ==== Proof.AccValue.lean ====
/-
  The matrix-product call: what its result array holds after the run.

  The grid is 8 x 2 x 8; point number n works on output block (n / 16, n / 8 % 2) with the slice n % 8 of 512
  contraction positions. The output block's buffer is carried through the 8 consecutive points of one block and
  written back after the last of them. Along those 8 points its contents are a fold: the zero word plus the first
  slice's products, then one more slice's products at each point, and the bias row after the last. Unrolled at an
  entry (r, c) that is the zero word plus the sum over the 8 slices of the sums of 512 products, plus the bias: a sum
  over 8 blocks of 512, which is the sum over all 4096 contraction positions. So every entry of the result is the inner
  product of a row of the left array with a row of the right array, plus the bias entry of its column.
-/
import proofs.«105852_j74474732912767_2_alg».proof.Proof.Gen.KernelIdeal.Frame
import proofs.«105852_j74474732912767_2_alg».proof.Proof.AccPieces
import proofs.«105852_j74474732912767_2_alg».proof.Proof.AccPay
import proofs.«105852_j74474732912767_2_alg».proof.Proof.Spec
import Idealize.ShloMosaic.Lib.Pipeline.Value
import Idealize.ShloMosaic.Lib.ValueIdx

noncomputable section

namespace Cert.KernelIdeal.Acc

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## Where a point's blocks sit in the arrays -/

/-- Row `r` of point `n`'s left block is row `n / 16 * 1024 + r` of the left array. -/
def rowX (n : ℕ) (r : Fin 1024) : Fin 8192 := ⟨n / 16 % 8 * 1024 + r.val, by have := r.isLt; omega⟩
/-- Row `c` of point `n`'s right block is row `n / 8 % 2 * 2048 + c` of the right array (and column of the result). -/
def rowW (n : ℕ) (cc : Fin 2048) : Fin 4096 := ⟨n / 8 % 2 * 2048 + cc.val, by have := cc.isLt; omega⟩
/-- Position `q` of point `n`'s slice is contraction position `n % 8 * 512 + q`. -/
def colK (n : ℕ) (q : Fin 512) : Fin 4096 := ⟨n % 8 * 512 + q.val, by have := q.isLt; omega⟩

/-- The four windows' block indices at every point, decided over the grid. -/
theorem idx_facts : ∀ t : Fin cfg1.N, win1_0.index t (0 : Fin 2) = t.val / 16 ∧ win1_0.index t (1 : Fin 2) = t.val % 8
    ∧ win1_1.index t (0 : Fin 2) = t.val / 8 % 2 ∧ win1_1.index t (1 : Fin 2) = t.val % 8
    ∧ win1_2.index t (0 : Fin 2) = 0 ∧ win1_2.index t (1 : Fin 2) = t.val / 8 % 2
    ∧ win1_3.index t (0 : Fin 2) = t.val / 16 ∧ win1_3.index t (1 : Fin 2) = t.val / 8 % 2 :=
  (by decide +kernel : ∀ t : Fin grid1.N, _)

theorem lt128 (t : Fin cfg1.N) : t.val < 128 := lt_of_lt_of_eq t.isLt (show cfg1.N = 128 from N_1)

/-- The left block read at (r, q). -/
theorem blk0 (c : Dev nD) (t : Fin cfg1.N) (r : Fin 1024) (q : Fin 512) :
    iblk1 V c 0 t (ix2 r q) = V c main_v1 (ix2 (rowX t.val r) (colK t.val q)) := by
  obtain ⟨e0, e1, -⟩ := idx_facts t
  have hN := lt128 t
  show V c main_v1 (((cfg1.win 0).blk t).view.emb (ix2 r q)) = _
  congr 1
  funext a; apply Fin.ext
  match a with
  | ⟨0, _⟩ => show win1_0.index t (0 : Fin 2) * 1024 + 1 * r.val = t.val / 16 % 8 * 1024 + r.val; rw [e0]; omega
  | ⟨1, _⟩ => show win1_0.index t (1 : Fin 2) * 512 + 1 * q.val = t.val % 8 * 512 + q.val; rw [e1]; omega

/-- The right block read at (c, q). -/
theorem blk1 (c : Dev nD) (t : Fin cfg1.N) (cc : Fin 2048) (q : Fin 512) :
    iblk1 V c 1 t (ix2 cc q) = V c main_v0 (ix2 (rowW t.val cc) (colK t.val q)) := by
  obtain ⟨-, -, e2, e3, -⟩ := idx_facts t
  show V c main_v0 (((cfg1.win 1).blk t).view.emb (ix2 cc q)) = _
  congr 1
  funext a; apply Fin.ext
  match a with
  | ⟨0, _⟩ => show win1_1.index t (0 : Fin 2) * 2048 + 1 * cc.val = t.val / 8 % 2 * 2048 + cc.val; rw [e2]; omega
  | ⟨1, _⟩ => show win1_1.index t (1 : Fin 2) * 512 + 1 * q.val = t.val % 8 * 512 + q.val; rw [e3]; omega

/-- The bias block read at (0, c). -/
theorem blk2 (c : Dev nD) (t : Fin cfg1.N) (cc : Fin 2048) :
    iblk1 V c 2 t (ix2 (0 : Fin 1) cc) = V c main_v2 (ix2 (0 : Fin 1) (rowW t.val cc)) := by
  obtain ⟨-, -, -, -, e4, e5, -⟩ := idx_facts t
  show V c main_v2 (((cfg1.win 2).blk t).view.emb (ix2 (0 : Fin 1) cc)) = _
  congr 1
  funext a; apply Fin.ext
  match a with
  | ⟨0, _⟩ => show win1_2.index t (0 : Fin 2) * 1 + 1 * 0 = 0; rw [e4]
  | ⟨1, _⟩ => show win1_2.index t (1 : Fin 2) * 2048 + 1 * cc.val = t.val / 8 % 2 * 2048 + cc.val; rw [e5]; omega

/-! ## The fold along the 8 points of one output block -/

/-- The three arrays the call reads, as the region finds them: the left array, the right array, the bias row. -/
abbrev XA (c : Dev nD) : S8192x4096.Idx → EReal := V c main_v1
abbrev WA (c : Dev nD) : S4096x4096.Idx → EReal := V c main_v0
abbrev BA (c : Dev nD) : S1x4096.Idx → EReal := V c main_v2

/-- What point `n` adds at entry `y` of the output block: the products over its slice. -/
def addend (c : Dev nD) (n : ℕ) (y : S1024x2048.Idx) : EReal :=
  ∑ q : Fin 512, XA V c (ix2 (rowX n (y 0)) (colK n q)) * WA V c (ix2 (rowW n (y 1)) (colK n q))

/-- The buffer after a block's first point, -/
def reset (c : Dev nD) (n : ℕ) (h : n < cfg1.N) : Vec Ideal S1024x2048 .f32 :=
  k1_pay2 (iblk1 V c 0 ⟨n, h⟩) (iblk1 V c 1 ⟨n, h⟩) (k1_pay1 (F := Ideal))
/-- and after a later point, from what the point before left. -/
def step (c : Dev nD) (n : ℕ) (h : n < cfg1.N) (acc : Vec Ideal S1024x2048 .f32) : Vec Ideal S1024x2048 .f32 :=
  if n % 8 = 7 then k1_pay3 (k1_pay2 (iblk1 V c 0 ⟨n, h⟩) (iblk1 V c 1 ⟨n, h⟩) acc) (iblk1 V c 2 ⟨n, h⟩)
  else k1_pay2 (iblk1 V c 0 ⟨n, h⟩) (iblk1 V c 1 ⟨n, h⟩) acc

theorem outs_reset (c : Dev nD) (n : ℕ) (h : n < cfg1.N) (h0 : n % 8 = 0) : outsAt1 V c n h = reset V c n h :=
  (outsAt1_A V c ⟨n, h⟩ h0 (show ¬n % 8 = 7 by omega)).trans (out_first ..)

theorem outs_step (c : Dev nD) (n : ℕ) (h : n + 1 < cfg1.N) (hne : ¬(n + 1) % 8 = 0) :
    outsAt1 V c (n + 1) h = step V c (n + 1) h (outsAt1 V c n (Nat.lt_of_succ_lt h)) := by
  by_cases h7 : (n + 1) % 8 = 7
  · rw [step, if_pos h7]
    exact (outsAt1_C V c ⟨n + 1, h⟩ hne h7).trans (out_last ..)
  · rw [step, if_neg h7]
    exact (outsAt1_B V c ⟨n + 1, h⟩ hne h7).trans (out_mid ..)

theorem reset_apply (c : Dev nD) (n : ℕ) (h : n < cfg1.N) (y : S1024x2048.Idx) :
    reset V c n h y = Ideal.ofBits .f32 0x00000000#32 + addend V c n y := by
  obtain ⟨r, cc, rfl⟩ : ∃ (r : Fin 1024) (cc : Fin 2048), y = ix2 r cc := ⟨y 0, y 1, eq_ix2 y⟩
  unfold reset
  rw [pay2_apply, pay1_apply]
  refine congrArg (_ + ·) (Finset.sum_congr rfl fun q _ => ?_)
  rw [blk0 V c ⟨n, h⟩ r q, blk1 V c ⟨n, h⟩ cc q]

theorem step_mid_apply (c : Dev nD) (n : ℕ) (h : n < cfg1.N) (acc : Vec Ideal S1024x2048 .f32) (y : S1024x2048.Idx)
    (h7 : ¬n % 8 = 7) : step V c n h acc y = acc y + addend V c n y := by
  obtain ⟨r, cc, rfl⟩ : ∃ (r : Fin 1024) (cc : Fin 2048), y = ix2 r cc := ⟨y 0, y 1, eq_ix2 y⟩
  rw [step, if_neg h7, pay2_apply]
  refine congrArg (_ + ·) (Finset.sum_congr rfl fun q _ => ?_)
  rw [blk0 V c ⟨n, h⟩ r q, blk1 V c ⟨n, h⟩ cc q]

theorem step_last_apply (c : Dev nD) (n : ℕ) (h : n < cfg1.N) (acc : Vec Ideal S1024x2048 .f32) (y : S1024x2048.Idx)
    (h7 : n % 8 = 7) :
    step V c n h acc y = (acc y + addend V c n y) + BA V c (ix2 (0 : Fin 1) (rowW n (y 1))) := by
  obtain ⟨r, cc, rfl⟩ : ∃ (r : Fin 1024) (cc : Fin 2048), y = ix2 r cc := ⟨y 0, y 1, eq_ix2 y⟩
  rw [step, if_pos h7, pay3_apply, pay2_apply, blk2 V c ⟨n, h⟩ cc]
  refine congrArg (· + _) (congrArg (_ + ·) (Finset.sum_congr rfl fun q _ => ?_))
  rw [blk0 V c ⟨n, h⟩ r q, blk1 V c ⟨n, h⟩ cc q]

/-- The buffer at a block's last point: the zero word plus the 8 slices' products, plus the bias. -/
theorem outs_last (c : Dev nD) (t : Fin cfg1.N) (h7 : t.val % 8 = 7) (y : S1024x2048.Idx) :
    outsAt1 V c t.val t.isLt y
      = (Ideal.ofBits .f32 0x00000000#32 + ∑ s ∈ Finset.range 8, addend V c (8 * (t.val / 8) + s) y)
        + BA V c (ix2 (0 : Fin 1) (rowW t.val (y 1))) := by
  have hN := lt128 t
  have hN' : cfg1.N = 128 := N_1
  have hb : 8 * (t.val / 8) + 7 = t.val := by omega
  have h' : 8 * (t.val / 8) + 7 < cfg1.N := by rw [hb]; exact t.isLt
  have same : ∀ (u : ℕ) (hu : u < cfg1.N), u = t.val → outsAt1 V c u hu = outsAt1 V c t.val t.isLt :=
    fun u hu e => by subst e; rfl
  rw [← same _ h' hb,
    Pipeline.eq_accAt (fun n h => outsAt1 V c n h) 8 (reset V c) (step V c) (outs_reset V c) (outs_step V c) (t.val / 8) 7
      (by decide) h',
    Pipeline.accAt_succ, step_last_apply V c _ _ _ y (by omega),
    Pipeline.accAt_add_apply (reset V c) (step V c) (fun _ => Ideal.ofBits .f32 0x00000000#32) (fun n y => addend V c n y)
      (8 * (t.val / 8)) 6 (fun h i => reset_apply V c _ h i)
      (fun n h acc i hlo hhi => step_mid_apply V c n h acc i (by omega)) 6 (le_refl 6) _ y,
    Finset.sum_range_succ _ 7, add_assoc (Ideal.ofBits .f32 0x00000000#32)]
  have e : rowW (8 * (t.val / 8) + (6 + 1)) (y 1) = rowW t.val (y 1) := by rw [show 8 * (t.val / 8) + (6 + 1) = t.val by omega]
  rw [e]

end Cert.KernelIdeal.Acc

end
-- ==== Proof.AccFinal.lean ====
/-
  The matrix-product call's result array: every entry (a, b) is the inner product of row a of the left array with row b
  of the right array, plus entry b of the bias row.

  Entry (a, b) lies in output block (a / 1024, b / 2048), which is written back after the last of its 8 points; what
  that point leaves at the entry is the zero word plus the 8 slices' sums of 512 products plus the bias. The 8 slices
  of 512 consecutive positions are the 4096 positions, and a sum over the blocks of the sums over each block is the
  whole sum.
-/
import proofs.«105852_j74474732912767_2_alg».proof.Proof.AccValue

noncomputable section

namespace Cert.KernelIdeal.Acc

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The result array as one function of the three arrays the call reads. -/
def Y (c : Dev nD) : S8192x4096.Idx → EReal := fun i =>
  (∑ d : Fin 4096, XA V c (ix2 (i 0) d) * WA V c (ix2 (i 1) d)) + BA V c (ix2 (0 : Fin 1) (i 1))

theorem Y_ix2 (c : Dev nD) (a : Fin 8192) (b : Fin 4096) :
    Y V c (ix2 a b) = (∑ d : Fin 4096, XA V c (ix2 a d) * WA V c (ix2 b d)) + BA V c (ix2 (0 : Fin 1) b) := rfl

/-- The zero word plus the 8 slices' sums is the sum over all 4096 positions. -/
theorem sum_slices (c : Dev nD) (t : Fin cfg1.N) (y : S1024x2048.Idx) :
    Ideal.ofBits .f32 0x00000000#32 + ∑ s ∈ Finset.range 8, addend V c (8 * (t.val / 8) + s) y
      = ∑ d : Fin 4096, XA V c (ix2 (rowX t.val (y 0)) d) * WA V c (ix2 (rowW t.val (y 1)) d) := by
  have hN := lt128 t
  obtain ⟨f, hf⟩ : ∃ f : ℕ → EReal, f = fun n => if hn : n < 4096 then
      XA V c (ix2 (rowX t.val (y 0)) ⟨n, hn⟩) * WA V c (ix2 (rowW t.val (y 1)) ⟨n, hn⟩) else 0 := ⟨_, rfl⟩
  have hadd : ∀ s ∈ Finset.range 8, addend V c (8 * (t.val / 8) + s) y = ∑ q : Fin 512, f (s * 512 + q.val) := by
    intro s hs
    have hs8 : s < 8 := Finset.mem_range.mp hs
    unfold addend
    refine Finset.sum_congr rfl fun q _ => ?_
    have hq := q.isLt
    have hlt : s * 512 + q.val < 4096 := by omega
    have eX : rowX (8 * (t.val / 8) + s) (y 0) = rowX t.val (y 0) :=
      Fin.ext (by show (8 * (t.val / 8) + s) / 16 % 8 * 1024 + _ = t.val / 16 % 8 * 1024 + _; omega)
    have eW : rowW (8 * (t.val / 8) + s) (y 1) = rowW t.val (y 1) :=
      Fin.ext (by show (8 * (t.val / 8) + s) / 8 % 2 * 2048 + _ = t.val / 8 % 2 * 2048 + _; omega)
    have eK : colK (8 * (t.val / 8) + s) q = ⟨s * 512 + q.val, hlt⟩ :=
      Fin.ext (by show (8 * (t.val / 8) + s) % 8 * 512 + q.val = s * 512 + q.val; omega)
    rw [eX, eW, eK, hf]
    dsimp only
    rw [dif_pos hlt]
  rw [Finset.sum_congr rfl hadd]
  have h8 := Cert.Ternary.runsum_eight f
  unfold Cert.Ternary.runsum at h8
  rw [h8, hf]
  refine Finset.sum_congr rfl fun d _ => ?_
  dsimp only
  rw [dif_pos d.isLt]

/-- Entry `y` of point `t`'s output block sits at (row, column) = (t / 16 * 1024 + y0, t / 8 % 2 * 2048 + y1). -/
theorem emb3 (t : Fin cfg1.N) (y : S1024x2048.Idx) :
    ((cfg1.win 3).blk t).view.emb y = ix2 (rowX t.val (y 0)) (rowW t.val (y 1)) := by
  obtain ⟨-, -, -, -, -, -, e6, e7⟩ := idx_facts t
  have hN := lt128 t
  funext a; apply Fin.ext
  match a with
  | ⟨0, _⟩ => show win1_3.index t (0 : Fin 2) * 1024 + 1 * (y 0).val = t.val / 16 % 8 * 1024 + (y 0).val; rw [e6]; omega
  | ⟨1, _⟩ => show win1_3.index t (1 : Fin 2) * 2048 + 1 * (y 1).val = t.val / 8 % 2 * 2048 + (y 1).val; rw [e7]; omega

/-- What a writing-back point writes back is its block of `Y`. -/
theorem flushed_eq (c : Dev nD) (t : Fin cfg1.N) (hf : (cfg1.win 3).flush t = true) :
    (dat1 V c).flushed 3 t = ((cfg1.win 3).blk t).view.read (Elt Ideal) (Y V c) := by
  have h7 : t.val % 8 = 7 := (flush1_3 t).mp hf
  show (cfg1.win 3).cut (grid1.coords t) ((dat1 V c).after 3 t) = _
  rw [after1_3]
  funext y
  show outsAt1 V c t.val t.isLt y = Y V c (((cfg1.win 3).blk t).view.emb y)
  rw [outs_last V c t h7 y, sum_slices V c t y, emb3 t y]
  rfl

/-- An entry of the array is in point `t`'s output block iff each coordinate is in the block's range on its axis. -/
theorem mem_blk3 (t : Fin cfg1.N) (i : S8192x4096.Idx) :
    i ∈ ((cfg1.win 3).blk t).view.set ↔ ∀ a : Fin 2, win1_3.index t a * S1024x2048.size a ≤ (i a).val
      ∧ (i a).val < win1_3.index t a * S1024x2048.size a + S1024x2048.size a := by
  show i ∈ ((View.whole main_v3).slice (win1_3.rect t)).set ↔ _
  rw [View.set_slice_whole, Rect.mem_set_unit]
  exact Iff.rfl

/-- Every entry is in the output block of a point that writes back: the last point of its block's run. -/
theorem cover (i : S8192x4096.Idx) :
    ∃ t : Fin cfg1.N, (cfg1.win 3).flush t = true ∧ i ∈ ((cfg1.win 3).blk t).view.set := by
  have h0 : (i 0).val < 8192 := (i 0).isLt
  have h1 : (i 1).val < 4096 := (i 1).isLt
  have hN' : cfg1.N = 128 := N_1
  obtain ⟨n, hn⟩ : ∃ n : ℕ, n = (i 0).val / 1024 * 16 + (i 1).val / 2048 * 8 + 7 := ⟨_, rfl⟩
  have hlt : n < cfg1.N := by rw [hN']; omega
  refine ⟨⟨n, hlt⟩, (flush1_3 _).mpr (by show n % 8 = 7; omega), ?_⟩
  obtain ⟨-, -, -, -, -, -, e6, e7⟩ := idx_facts ⟨n, hlt⟩
  rw [mem_blk3]
  intro a
  match a with
  | ⟨0, _⟩ =>
    show win1_3.index ⟨n, hlt⟩ (0 : Fin 2) * 1024 ≤ (i 0).val ∧ (i 0).val < win1_3.index ⟨n, hlt⟩ (0 : Fin 2) * 1024 + 1024
    rw [e6]; show n / 16 * 1024 ≤ (i 0).val ∧ (i 0).val < n / 16 * 1024 + 1024; omega
  | ⟨1, _⟩ =>
    show win1_3.index ⟨n, hlt⟩ (1 : Fin 2) * 2048 ≤ (i 1).val ∧ (i 1).val < win1_3.index ⟨n, hlt⟩ (1 : Fin 2) * 2048 + 2048
    rw [e7]; show n / 8 % 2 * 2048 ≤ (i 1).val ∧ (i 1).val < n / 8 % 2 * 2048 + 2048; omega

/-- The result array after the run. -/
theorem final (c : Dev nD) : (dat1 V c).arrAt 3 cfg1.N = Y V c :=
  (dat1 V c).arrAt_eq_of_cover 3 (Y V c) (fun t hf => flushed_eq V c t hf) cover

end Cert.KernelIdeal.Acc

end
-- ==== Proof.LibDenseOps.lean ====
/-
  General lemmas: the operations of a dense layer read at an index written with `ix1` / `ix2`, at the ideal values.

  * a vector `[a]` cast to a column `[a, 1]`, and a column `[a, 1]` broadcast over `b` columns (the two "keepdims"
    layout steps around a row reduction);
  * a plain matrix product `[a, k] × [k, b]` into a zero accumulator as the sum over `Fin k` of the products;
  * a lane sum and a lane maximum of an `[a, b]` array (the reduction over axis 1) as a sum and a fold over `Fin b`;
  * the host's maximum-reduce over axis 1 as the same fold.
  Nothing here mentions a program: the extents are variables and the dimension records are hypotheses.
-/
import Idealize.ShloMosaic.Lib.ValueLayout
import Idealize.ShloMosaic.Lib.ValueIdx
import Idealize.ShloMosaic.PureOps.Ideal.Laws

noncomputable section

namespace Cert.LibDenseOps

open Idealize.ShloMosaic Idealize.ShloMosaic.ValueIdx

variable {α : Type}

/-- An `[a]` array cast to a column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix product of an `[a, k]` by a `[k, b]` array into the zero accumulator, whose dimension record contracts
    the left operand's columns against the right operand's rows (the four coordinate facts), is at `(p, j)` the sum over
    `q` of `L (p, q) · R (q, j)`. -/
theorem matmul_zero_ix2 {a k b : ℕ} {φ₁ φ₂ : FTy} (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, b]⟩ φ₂) (p : Fin a) (j : Fin b) :
    FloatOps.matmul D prec L R (constant ⟨2, ![a, b]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- The reduced index `p` of an `[a, b]` array with lane `c` put back on axis 1 is `(p, c)`. -/
theorem lift_lane {a b : ℕ} (h : (⟨2, ![a, b]⟩ : Shape).Reduces [1] (⟨1, ![a]⟩ : Shape)) (p : Fin a)
    (c : Fin ((⟨2, ![a, b]⟩ : Shape).size 1)) : h.lift (ix1 p) c = ix2 p (⟨c.val, c.isLt⟩ : Fin b) := by
  funext ax; apply Fin.ext
  fin_cases ax <;> rfl

/-- A lane sum of an `[a, b]` array, read at row `p`: the sum over the row. -/
theorem laneSum_apply {a b : ℕ} (src : FVec Ideal ⟨2, ![a, b]⟩ .f32) (acc : BitVec 32)
    (h : (⟨2, ![a, b]⟩ : Shape).Reduces [1] (⟨1, ![a]⟩ : Shape)) (hφ : FKind.Formats .f32) (hacc : acc = FKind.add.neutral .f32 hφ) (p : Fin a) :
    multiReduction .add [1] ⟨1, ![a]⟩ src acc h hφ hacc (ix1 p) = ∑ c : Fin b, src (ix2 p c) := by
  refine (Ideal.multiReduction_add_single src acc h hφ hacc (ix1 p)).trans ?_
  exact Finset.sum_congr rfl fun c _ => congrArg src (lift_lane h p c)

/-- A lane maximum of an `[a, b]` array, read at row `p`: the fold of `max` over the row from the accumulator's value. -/
theorem laneMax_apply {a b : ℕ} (src : FVec Ideal ⟨2, ![a, b]⟩ .f32) (acc : BitVec 32)
    (h : (⟨2, ![a, b]⟩ : Shape).Reduces [1] (⟨1, ![a]⟩ : Shape)) (hφ : FKind.Formats .f32) (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun c => src (ix2 p c)) := by
  refine (Ideal.multiReduction_maximumf_single src acc h hφ hacc (ix1 p)).trans ?_
  have hf : (src ∘ h.lift (ix1 p)) = fun c : Fin b => src (ix2 p c) := funext fun c => congrArg src (lift_lane h p c)
  exact congrArg (fun f => Finset.fold max (Ideal.ofBits .f32 acc) f (Finset.univ : Finset (Fin b))) hf

/-- The host's reduce with a maximum body over axis 1 of an `[a, b]` array, read at row `p`: the same fold from the
    initial value. -/
theorem hostRowMax_apply {a b : ℕ} (x : FVec Ideal ⟨2, ![a, b]⟩ .f32) (init : (⟨0, ![]⟩ : Shape).Idx → Ideal .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (p : Fin a) :
    Host.reduce FloatOps.maximumf x init h' hu (ix1 p)
      = (Finset.univ : Finset (Fin b)).fold max (init (Shape.Idx.first hu)) (fun c => x (ix2 p c)) := by
  rw [Host.reduce_eq_fold_single FloatOps.maximumf x init h' h hu]
  have hf : (x ∘ h.lift (ix1 p)) = fun c : Fin b => x (ix2 p c) := funext fun c => congrArg x (lift_lane h p c)
  exact congrArg (fun f => Finset.fold max (init (Shape.Idx.first hu)) f (Finset.univ : Finset (Fin b))) hf

end Cert.LibDenseOps

end
-- ==== Proof.QuantValue.lean ====
/-
  The value of the quantization kernel: the result array holds the ternary matrix of the weight.

  The kernel visits 8 blocks of 512 rows. At each it loads the block, sums each row's absolute values, divides by 4096,
  multiplies by the word of 0.7 to get the row's threshold t, and writes 1 where the entry is above t, -1 where it is
  below 0 - t, and 0 elsewhere. On the extended reals 0 - t = -t, a row's sum inside a block is the sum over the same
  row of the whole matrix (row p of block b is row 512 b + p), and the narrowing to the 16-bit format is the identity.
  So each block written back is the block of the ternary matrix `Cert.Ternary.quant`, and the 8 blocks cover every row
  (row r lies in block r / 512).
-/
import proofs.«105852_j74474732912767_2_alg».proof.Proof.Gen.KernelIdeal.Frame
import proofs.«105852_j74474732912767_2_alg».proof.Proof.Spec
import proofs.«105852_j74474732912767_2_alg».proof.Proof.LibDenseOps
import Idealize.ShloMosaic.Lib.Pipeline.Value
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.QuantValue

open Cert.KernelIdeal Cert.KernelIdeal.Gen

/-- Row p's threshold inside a block. -/
def rowThr (x0 : Vec Ideal S512x4096 .f32) (p : Fin 512) : EReal :=
  Ideal.ofBits .f32 0x3F333333#32
    * Ideal.div (∑ c : Fin 4096, max (x0 (ix2 p c)) (-(x0 (ix2 p c)))) (Ideal.ofBits .f32 0x45800000#32)

/-- The lane sum of the absolute values of a block, read at row p. -/
theorem rowsum_apply (x0 : Vec Ideal S512x4096 .f32) (p : Fin 512) (hφ : FKind.Formats .f32)
    (hacc : (0x00000000#32 : BitVec 32) = 0x00000000#32) :
    multiReduction (F := Ideal) .add [1] S512 (absf x0) 0x00000000#32 reduces_S512x4096_S512 hφ hacc (ix1 p)
      = ∑ c : Fin 4096, max (x0 (ix2 p c)) (-(x0 (ix2 p c))) :=
  Cert.LibDenseOps.laneSum_apply (a := 512) (b := 4096) (absf x0) 0x00000000#32 reduces_S512x4096_S512 hφ hacc p

theorem pay_apply (x0 : Vec Ideal S512x4096 .f32) (p : Fin 512) (d : Fin 4096) :
    k0_pay1 (F := Ideal) x0 (ix2 p d)
      = Scalar.select (Ideal.cmp .ogt (x0 (ix2 p d)) (rowThr x0 p)) (Ideal.ofBits .f32 0x3F800000#32)
          (Scalar.select (Ideal.cmp .olt (x0 (ix2 p d)) (-(rowThr x0 p))) (Ideal.ofBits .f32 0xBF800000#32)
            (Ideal.ofBits .f32 0x00000000#32)) := by
  unfold k0_pay1
  simp only [truncf_apply, select_apply, cmpf_apply, broadcast_apply]
  rw [Cert.LibDenseOps.broadcastTo_a1_ab_apply, Cert.LibDenseOps.broadcastTo_a1_ab_apply]
  simp only [subf_apply, mulf_apply, divf_apply, broadcast_apply]
  rw [Cert.LibDenseOps.shapeCast_a_a1_apply, rowsum_apply]
  show Scalar.select (Ideal.cmp .ogt (x0 (ix2 p d)) (rowThr x0 p)) (Ideal.ofBits .f32 0x3F800000#32)
          (Scalar.select (Ideal.cmp .olt (x0 (ix2 p d)) (Ideal.ofBits .f32 0x00000000#32 - rowThr x0 p)) (Ideal.ofBits .f32 0xBF800000#32)
            (Ideal.ofBits .f32 0x00000000#32)) = _
  rw [Ideal.ofBits_zero_f32, zero_sub]

/-- The payload of a block whose row p is row o p of a matrix W is the ternary value of W at that row. -/
theorem pay_eq_tq (W : S4096x4096.Idx → EReal) (x0 : Vec Ideal S512x4096 .f32) (o : Fin 512 → Fin 4096)
    (hx : ∀ (p : Fin 512) (d : Fin 4096), x0 (ix2 p d) = W (ix2 (o p) d)) (p : Fin 512) (d : Fin 4096) :
    k0_pay1 (F := Ideal) x0 (ix2 p d) = Cert.Ternary.tq W (o p) d := by
  rw [pay_apply]
  have ht : rowThr x0 p = Cert.Ternary.thr W (o p) := by
    unfold rowThr Cert.Ternary.thr
    simp only [hx]
  rw [ht, hx]
  rfl

section Blocks

variable (V : (c : Dev nD) → (b : Ref sig .tc) → Buf (Elt Ideal) ((c : Thread nD τ).loc b))

theorem hz : (![0, 0] : Fin 2 → Nat) = fun _ => 0 := funext fun a => by fin_cases a <;> rfl

/-- Both windows' block at point t is block (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The global row of row p of block t. -/
def grow (t : Fin cfg0.N) (p : Fin 512) : Fin 4096 :=
  ⟨t.val * 512 + p.val, by have h1 := t.isLt; have h2 : cfg0.N = 8 := N_0; have h3 := p.isLt; omega⟩

/-- The input block at point t, read at (p, d): the matrix at (512 t + p, d). -/
theorem iblk_apply (c : Dev nD) (t : Fin cfg0.N) (p : Fin 512) (d : Fin 4096) :
    (iblk0 V c 0 t : Vec Ideal S512x4096 .f32) (ix2 p d) = (V c main_arg1 : S4096x4096.Idx → EReal) (ix2 (grow t p) d) := by
  obtain ⟨e0, e1, -, -⟩ := idx_facts t
  show (V c main_arg1 : S4096x4096.Idx → EReal) (((cfg0.win 0).blk t).view.emb (ix2 p d)) = _
  refine congrArg _ ?_
  funext a; apply Fin.ext
  match a with
  | ⟨0, _⟩ => show win0_0.index t (0 : Fin 2) * 512 + 1 * p.val = t.val * 512 + p.val; rw [e0]; omega
  | ⟨1, _⟩ => show win0_0.index t (1 : Fin 2) * 4096 + 1 * d.val = d.val; rw [e1]; omega

theorem flushed_eq (c : Dev nD) (t : Fin cfg0.N) :
    (dat0 V c).flushed 1 t = ((cfg0.win 1).blk t).view.read (Elt Ideal) (Cert.Ternary.quant (V c main_arg1)) := by
  show (cfg0.win 1).cut (grid0.coords t) ((dat0 V c).after 1 t) = _
  rw [after0_1]
  unfold out0_1
  rw [View.canon_unit_zero hz]
  simp only [View.ld_unit_zero (S := S512x4096) hz]
  obtain ⟨-, -, e2, e3⟩ := idx_facts t
  funext j
  show k0_pay1 (F := Ideal) (iblk0 V c 0 t) (j : S512x4096.Idx)
    = Cert.Ternary.quant (V c main_arg1 : S4096x4096.Idx → EReal) (((cfg0.win 1).blk t).view.emb j)
  have hj : ((cfg0.win 1).blk t).view.emb j = ix2 (grow t ((j : S512x4096.Idx) 0)) ((j : S512x4096.Idx) 1) := by
    funext a; apply Fin.ext
    match a with
    | ⟨0, _⟩ => show win0_1.index t (0 : Fin 2) * 512 + 1 * ((j : S512x4096.Idx) 0).val = t.val * 512 + ((j : S512x4096.Idx) 0).val; rw [e2]; omega
    | ⟨1, _⟩ => show win0_1.index t (1 : Fin 2) * 4096 + 1 * ((j : S512x4096.Idx) 1).val = ((j : S512x4096.Idx) 1).val; rw [e3]; omega
  rw [hj]
  exact (congrArg (k0_pay1 (F := Ideal) (iblk0 V c 0 t)) (eq_ix2 (j : S512x4096.Idx))).trans
    (pay_eq_tq (V c main_arg1) (iblk0 V c 0 t) (grow t) (iblk_apply V c t) _ _)

/-- Every row of the matrix lies in the block of the point its index divided by 512 names. -/
theorem cover (i : S4096x4096.Idx) :
    ∃ t : Fin cfg0.N, (cfg0.win 1).flush t = true ∧ i ∈ ((cfg0.win 1).blk t).view.set := by
  have hi0 : (i 0).val < 4096 := (i 0).isLt
  have hi1 : (i 1).val < 4096 := (i 1).isLt
  have hN : cfg0.N = 8 := N_0
  have ht : (i 0).val / 512 < cfg0.N := by rw [hN]; omega
  obtain ⟨-, -, e2, e3⟩ := idx_facts ⟨(i 0).val / 512, ht⟩
  refine ⟨⟨(i 0).val / 512, ht⟩, flush0_1 _, ?_⟩
  show i ∈ ((View.whole main_v0).slice (win0_1.rect ⟨(i 0).val / 512, ht⟩)).set
  rw [View.set_slice_whole, Rect.mem_set_unit]
  intro a
  match a with
  | ⟨0, _⟩ =>
    show win0_1.index ⟨(i 0).val / 512, ht⟩ (0 : Fin 2) * 512 ≤ (i 0).val
      ∧ (i 0).val < win0_1.index ⟨(i 0).val / 512, ht⟩ (0 : Fin 2) * 512 + 512
    rw [e2]; show (i 0).val / 512 * 512 ≤ (i 0).val ∧ (i 0).val < (i 0).val / 512 * 512 + 512; omega
  | ⟨1, _⟩ =>
    show win0_1.index ⟨(i 0).val / 512, ht⟩ (1 : Fin 2) * 4096 ≤ (i 1).val
      ∧ (i 1).val < win0_1.index ⟨(i 0).val / 512, ht⟩ (1 : Fin 2) * 4096 + 4096
    rw [e3]; omega

/-- After the eight points the result array of the quantization holds the ternary matrix of the weight as the region found it. -/
theorem quant_final (c : Dev nD) :
    (dat0 V c).arrAt 1 cfg0.N = Cert.Ternary.quant (V c main_arg1) :=
  (dat0 V c).arrAt_eq_of_cover 1 (Cert.Ternary.quant (V c main_arg1)) (fun t _ => flushed_eq V c t) cover

end Blocks

end Cert.KernelIdeal.QuantValue

end
-- ==== Proof.LibMergeRows.lean ====
/-
  General lemmas: small layout operations read at an index written with `ix1` / `ix2` / `ix3`, over variable extents.

  * the two leading axes of an `[a, b, c]` array merged into one axis of `r = a · b` rows, and an `[r, c]` array split
    back into `[a, b, c]`: row `p · b + q` of the merged array is row `(p, q)` of the split one (the row-major position
    is kept), so neither direction needs a quotient or a remainder;
  * a column `[a, 1]` re-laid as a row `[1, a]`;
  * a one-entry array `[1, 1]` spread over `[a, b]`, and a rank-zero array cast to `[1, 1]`;
  * a rank-zero array spread over any shape by a `broadcast_in_dim` with no dimensions.
  Nothing here mentions a program: the extents are variables and the shape evidence is a hypothesis.
-/
import Idealize.ShloMosaic.Lib.Pipeline.Value
import Idealize.ShloMosaic.Lib.ValueIdx
import Idealize.ShloMosaic.Lib.ValueLayout

namespace Cert.LibMergeRows

open Idealize.ShloMosaic Idealize.ShloMosaic.ValueIdx

variable {α : Type}

/-- Row `(p, q)` of an `[a, b, ·]` array sits at row `p · b + q` of the array with the two leading axes merged. -/
def mergeIdx {a b r : ℕ} (hr : r = a * b) (p : Fin a) (q : Fin b) : Fin r :=
  ⟨p.val * b + q.val, by
    subst hr
    exact Nat.lt_of_lt_of_le (Nat.add_lt_add_left q.isLt _)
      (by rw [← Nat.succ_mul]; exact Nat.mul_le_mul_right _ p.isLt)⟩

theorem mergeIdx_val {a b r : ℕ} (hr : r = a * b) (p : Fin a) (q : Fin b) : (mergeIdx hr p q).val = p.val * b + q.val := rfl

/-- An `[a, b, c]` array with its two leading axes merged reads, at row `p · b + q`, the operand's row `(p, q)`. -/
theorem shapeCast_abc_rc_apply {a b c r : ℕ} (x : (⟨3, ![a, b, c]⟩ : Shape).Idx → α)
    (h : (⟨3, ![a, b, c]⟩ : Shape).ShapeCasts ⟨2, ![r, c]⟩) (hr : r = a * b) (p : Fin a) (q : Fin b) (k : Fin c) :
    shapeCast ⟨2, ![r, c]⟩ x h (ix2 (mergeIdx hr p q) k) = x (ix3 p q k) :=
  shapeCast_apply x h _ _ (by
    rw [Shape.rowMajor_val_three, Shape.rowMajor_val_two]
    rfl)

/-- An `[r, c]` array with its leading axis split into `a` groups of `b` rows reads, at `(p, q)`, the operand's row
    `p · b + q`. -/
theorem shapeCast_rc_abc_apply {a b c r : ℕ} (y : (⟨2, ![r, c]⟩ : Shape).Idx → α)
    (h : (⟨2, ![r, c]⟩ : Shape).ShapeCasts ⟨3, ![a, b, c]⟩) (hr : r = a * b) (p : Fin a) (q : Fin b) (k : Fin c) :
    shapeCast ⟨3, ![a, b, c]⟩ y h (ix3 p q k) = y (ix2 (mergeIdx hr p q) k) :=
  shapeCast_apply y h _ _ (by
    rw [Shape.rowMajor_val_three, Shape.rowMajor_val_two]
    rfl)

/-- A column `[a, 1]` re-laid as a row `[1, a]` reads, at `(u, p)`, the column's entry `p`. -/
theorem shapeCast_a1_1a_apply {a : ℕ} (x : (⟨2, ![a, 1]⟩ : Shape).Idx → α)
    (h : (⟨2, ![a, 1]⟩ : Shape).ShapeCasts ⟨2, ![1, a]⟩) (u : Fin 1) (p : Fin a) :
    shapeCast ⟨2, ![1, a]⟩ x h (ix2 u p) = x (ix2 p (0 : Fin 1)) :=
  shapeCast_apply x h _ _ (by
    have hu : u.val = 0 := by omega
    rw [Shape.rowMajor_val_two, Shape.rowMajor_val_two]
    show p.val * 1 + 0 = u.val * a + p.val
    rw [hu, Nat.mul_one, Nat.add_zero, Nat.zero_mul, Nat.zero_add])

/-- A column `[a, 1]` flattened to a vector `[a]` reads, at `p`, the column's entry `p`. -/
theorem shapeCast_a1_a_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A one-entry array `[1, 1]` spread over `[a, b]` reads its one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- A rank-zero array cast to `[1, 1]` reads its one entry. -/
theorem shapeCast_0_11_apply (x : (⟨0, ![]⟩ : Shape).Idx → α)
    (h : (⟨0, ![]⟩ : Shape).ShapeCasts ⟨2, ![1, 1]⟩) (u v : Fin 1) :
    shapeCast ⟨2, ![1, 1]⟩ x h (ix2 u v) = x ix0 :=
  congrArg x (eq_ix0 _)

/-- A rank-zero array spread over any shape reads its one entry everywhere. -/
theorem broadcastInDim_0_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun ax => ax.elim0)

end Cert.LibMergeRows
-- ==== Proof.HostGlue.lean ====
/-
  The whole idealized kernel: its result is the specification's function of the three argument arrays.

  The quantization call leaves the ternary matrix of the weight array. The host re-lays the input [4, 2048, 4096] as
  [8192, 4096] (row b * 2048 + s is row (b, s)) and the bias [4096] as a row [1, 4096]. The matrix-product call leaves,
  at (a, o), the inner product of row a of the re-laid input with row o of the ternary matrix plus the bias entry o. The
  host re-lays that [8192, 4096] array as [4, 2048, 4096]. So the result at (b, s, o) is the inner product of row (b, s) of
  the input with the ternary row o, plus the bias entry o.
-/
import proofs.«105852_j74474732912767_2_alg».proof.Proof.Gen.KernelIdeal.Frame
import proofs.«105852_j74474732912767_2_alg».proof.Proof.AccFinal
import proofs.«105852_j74474732912767_2_alg».proof.Proof.QuantValue
import proofs.«105852_j74474732912767_2_alg».proof.Proof.LibMergeRows
import proofs.«105852_j74474732912767_2_alg».proof.Proof.Spec
import Idealize.ShloMosaic.Lib.StableHlo.Run
import Idealize.ShloMosaic.Lib.ValueLayout

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The matrix-product call finds the input re-laid as [8192, 4096], -/
theorem entry_x (c : Dev nD) : (V2 m ρ c main_v1 : S8192x4096.Idx → EReal)
    = shapeCast S8192x4096 (m ((c : Thread nD τ).loc main_arg0)) shapeCasts_S4x2048x4096_S8192x4096 := by
  show StableHlo.after hostOps1 (W1 m ρ c) (Proc.devRef .tc main_v1) = _
  after_results
  rw [W1_of_ne m ρ c main_arg0 (by decide)]
  rfl

/-- the bias re-laid as a row [1, 4096], -/
theorem entry_b (c : Dev nD) : (V2 m ρ c main_v2 : S1x4096.Idx → EReal)
    = shapeCast S1x4096 (m ((c : Thread nD τ).loc main_arg2)) shapeCasts_S4096_S1x4096 := by
  show StableHlo.after hostOps1 (W1 m ρ c) (Proc.devRef .tc main_v2) = _
  after_results
  rw [W1_of_ne m ρ c main_arg2 (by decide)]
  rfl

/-- and the ternary matrix the quantization call left. -/
theorem entry_w (c : Dev nD) : (V2 m ρ c main_v0 : S4096x4096.Idx → EReal)
    = Cert.Ternary.quant (m ((c : Thread nD τ).loc main_arg1)) := by
  show StableHlo.after hostOps1 (W1 m ρ c) (Proc.devRef .tc main_v0) = _
  after_results
  rw [W1_arr m ρ c 1, Cert.KernelIdeal.QuantValue.quant_final (V0 m ρ) c]

/-- The result buffer at the last boundary is the re-laid result of the matrix-product call. -/
theorem exit_v4 (c : Dev nD) : (W4 m ρ c (Proc.devRef .tc main_v4) : S4x2048x4096.Idx → EReal)
    = shapeCast S4x2048x4096 (Cert.KernelIdeal.Acc.Y (V2 m ρ) c) shapeCasts_S8192x4096_S4x2048x4096 := by
  show StableHlo.after hostOps2 (W3 m ρ c) (Proc.devRef .tc main_v4) = _
  after_results
  rw [W3_arr m ρ c 3, Cert.KernelIdeal.Acc.final (V2 m ρ) c]
  rfl

/-- The result is the specification's function of the arguments. -/
theorem result_eq (c : Dev nD) : (W4 m ρ c (Proc.devRef .tc main_v4) : S4x2048x4096.Idx → EReal)
    = Cert.Ternary.G (m ((c : Thread nD τ).loc main_arg0)) (m ((c : Thread nD τ).loc main_arg1)) (m ((c : Thread nD τ).loc main_arg2)) := by
  rw [exit_v4]
  funext i
  obtain ⟨b, s, o, rfl⟩ : ∃ (b : Fin 4) (s : Fin 2048) (o : Fin 4096), i = ix3 b s o := ⟨i 0, i 1, i 2, eq_ix3 i⟩
  rw [Cert.LibMergeRows.shapeCast_rc_abc_apply (a := 4) (b := 2048) (c := 4096) (r := 8192) _ _ (by decide) b s o,
    Cert.KernelIdeal.Acc.Y_ix2, Cert.Ternary.G_ix3]
  have hx : ∀ d : Fin 4096, Cert.KernelIdeal.Acc.XA (V2 m ρ) c (ix2 (Cert.LibMergeRows.mergeIdx (by decide : 8192 = 4 * 2048) b s) d)
      = m ((c : Thread nD τ).loc main_arg0) (ix3 b s d) := fun d => by
    show (V2 m ρ c main_v1 : S8192x4096.Idx → EReal) _ = _
    rw [entry_x m ρ c]
    exact Cert.LibMergeRows.shapeCast_abc_rc_apply (a := 4) (b := 2048) (c := 4096) (r := 8192) _ _ (by decide) b s d
  have hw : ∀ d : Fin 4096, Cert.KernelIdeal.Acc.WA (V2 m ρ) c (ix2 o d) = Cert.Ternary.tq (m ((c : Thread nD τ).loc main_arg1)) o d := fun d => by
    show (V2 m ρ c main_v0 : S4096x4096.Idx → EReal) _ = _
    rw [entry_w m ρ c, Cert.Ternary.quant_ix2]
  have hb : Cert.KernelIdeal.Acc.BA (V2 m ρ) c (ix2 (0 : Fin 1) o) = m ((c : Thread nD τ).loc main_arg2) (ix1 o) := by
    show (V2 m ρ c main_v2 : S1x4096.Idx → EReal) _ = _
    rw [entry_b m ρ c]
    exact shapeCast_a_1a_apply _ _ (0 : Fin 1) o
  rw [hb]
  exact congrArg (· + _) (Finset.sum_congr rfl fun d _ => by rw [hx d, hw d])

end Cert.KernelIdeal.Whole

end
-- ==== Proof.RefValue.lean ====
/-
  The reference program, read index by index on the extended reals, computes the specification's function G.

  The reference forms each row's threshold on the host (the word of 0.7 times the row's sum of absolute values divided by
  4096), selects 1, -1 or 0 by two comparisons, then passes the ternary value q through w + (q - w) before the inner
  product. For a real weight w that detour returns q itself, so the inner product is taken with the ternary row, and the
  bias is added as in G.
-/
import proofs.«105852_j74474732912767_2_alg».proof.Proof.Gen.ReferenceIdeal.Read
import proofs.«105852_j74474732912767_2_alg».proof.Proof.Spec

noncomputable section

namespace Cert.ReferenceIdeal.RefValue

open Cert.ReferenceIdeal Cert.ReferenceIdeal.Read Idealize.ShloMosaic Idealize.ShloMosaic.ValueIdx

/-- Row `o`'s entry of the threshold column is the specification's threshold: the host's row sum starts from the zero
    word, which adds nothing, and the host's absolute value of `w` is `max w (-w)`. -/
theorem v6_eq (W : (⟨S4096x4096, .f32⟩ : BufTy).Contents (Elt Ideal)) (o : Fin 4096) :
    val_main_v6 (F := Ideal) W (ix2 o (0 : Fin 1)) = Cert.Ternary.thr W o := by
  rw [val_main_v6_apply, val_main_v5_apply, val_main_cst_1_apply, val_main_v4_apply, val_main_v2_apply,
    val_main_v3_apply, val_main_cst_0_apply, val_main_v1_apply, val_main_cst_apply]
  unfold Cert.Ternary.thr
  simp only [Ideal.mulf_def, Ideal.hostDivf_def, Ideal.ofBits_def]
  rw [Ideal.ofBits_zero_f32, zero_add]
  refine congrArg (fun s => _ * Ideal.div s _) (Finset.sum_congr rfl fun k _ => ?_)
  rw [val_main_v0_apply]
  have hk : idx_main_v1 (idx_main_v2 (ix2 o (0 : Fin 1))) k = ix2 o k :=
    funext fun a => Fin.ext (by match a with | ⟨0, _⟩ => rfl | ⟨1, _⟩ => rfl)
  rw [hk]
  rfl

/-- The two broadcasts of the threshold column read entry `(o, d)` from row `o` of the column. -/
theorem idx7_eq (o d : Fin 4096) : idx_main_v7 (ix2 o d) = ix2 o (0 : Fin 1) :=
  funext fun a => Fin.ext (by match a with | ⟨0, _⟩ => rfl | ⟨1, _⟩ => rfl)

theorem idx10_eq (o d : Fin 4096) : idx_main_v10 (ix2 o d) = ix2 o (0 : Fin 1) :=
  funext fun a => Fin.ext (by match a with | ⟨0, _⟩ => rfl | ⟨1, _⟩ => rfl)

/-- The selected value at `(o, d)` is the specification's ternary value. -/
theorem v13_eq (W : (⟨S4096x4096, .f32⟩ : BufTy).Contents (Elt Ideal)) (o d : Fin 4096) :
    val_main_v13 (F := Ideal) W (ix2 o d) = Cert.Ternary.tq W o d := by
  rw [val_main_v13_apply, val_main_v8_apply, val_main_v7_apply, idx7_eq, v6_eq, val_main_call1_v0_apply,
    val_main_cst_4_apply, val_main_v12_apply, val_main_v11_apply, val_main_v10_apply, idx10_eq, val_main_v9_apply,
    v6_eq, val_main_call0_v0_apply, val_main_cst_2_apply, val_main_call0_v1_apply, val_main_cst_3_apply]
  rfl

/-- For a real weight the detour `w + (q - w)` of the straight-through step is `q`: the operand of the inner product
    at `(o, d)` is the ternary value. -/
theorem v16_eq (W : (⟨S4096x4096, .f32⟩ : BufTy).Contents (Elt Ideal)) (hW : ∀ i, ∃ r : ℝ, W i = (r : EReal))
    (o d : Fin 4096) : val_main_v16 (F := Ideal) W (ix2 o d) = Cert.Ternary.tq W o d := by
  rw [val_main_v16_apply, val_main_v15_apply, val_main_v14_apply, v13_eq]
  obtain ⟨r, hr⟩ := hW (ix2 o d)
  rw [hr]
  exact Cert.Ternary.real_add_sub_cancel r _

/-- The reference's result is the specification's function. -/
theorem ref_eq (X : (⟨Cert.ReferenceIdeal.S4x2048x4096, .f32⟩ : BufTy).Contents (Elt Ideal))
    (W : (⟨Cert.ReferenceIdeal.S4096x4096, .f32⟩ : BufTy).Contents (Elt Ideal))
    (B : (⟨Cert.ReferenceIdeal.S4096, .f32⟩ : BufTy).Contents (Elt Ideal)) (hW : ∀ i, ∃ r : ℝ, W i = (r : EReal)) :
    Cert.ReferenceIdeal.Read.val_main_v20 (F := Ideal) X W B = Cert.Ternary.G X W B := by
  funext i
  obtain ⟨b, s, o, rfl⟩ : ∃ b s o, i = ix3 b s o := ⟨i 0, i 1, i 2, eq_ix3 i⟩
  rw [val_main_v20_apply, val_main_v17_apply, val_main_v19_apply, val_main_v18_apply, Cert.Ternary.G_ix3]
  have hb : idx_main_v18 (idx_main_v19 (ix3 b s o)) = ix1 o :=
    funext fun a => Fin.ext (by match a with | ⟨0, _⟩ => rfl)
  rw [hb]
  refine congrArg (· + B (ix1 o)) (Finset.sum_congr rfl fun k _ => ?_)
  have hl : lidx_main_v17 (ix3 b s o) k = ix3 b s k :=
    funext fun a => Fin.ext (by match a with | ⟨0, _⟩ => rfl | ⟨1, _⟩ => rfl | ⟨2, _⟩ => rfl)
  have hr : ridx_main_v17 (ix3 b s o) k = ix2 o k :=
    funext fun a => Fin.ext (by match a with | ⟨0, _⟩ => rfl | ⟨1, _⟩ => rfl)
  rw [hl, hr, v16_eq W hW]

end Cert.ReferenceIdeal.RefValue

end
-- ==== Proof.Finite.lean ====
/-
  From the precondition "every entry of the three inputs has absolute value below +∞" to "every weight is a real
  number".

  The precondition is a conjunction of three conjunctions over all entries; the middle one ranges over the weight matrix.
  Each entry's test compares max w (-w) with the word of +∞ by "less than". On the extended reals max w (-w) is +∞ at
  both infinities, so the test holds only at a real w.
-/
import proofs.«105852_j74474732912767_2_alg».proof.Defs
import Idealize.ShloMosaic.Lib.ReduceAll
import Idealize.ShloMosaic.Lib.ValueIdx
import Idealize.ShloMosaic.PureOps.Ideal.Laws

noncomputable section

namespace Cert.Ternary.Finite

open Idealize.ShloMosaic Idealize.SL.Sem

/-- The shape of a scalar has one index. -/
instance : Subsingleton Cert.Pre_finite_inputs.S_.Idx := ⟨fun a b => funext fun d => d.elim0⟩

/-- The word 0x7F800000 is +∞. -/
theorem ofBits_inf : Ideal.ofBits .f32 0x7F800000#32 = ⊤ := by simp [Ideal.ofBits, Ideal.ieee]

/-- An extended real whose absolute value `max x (-x)` is below +∞ is a real number. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | top => simp [Ideal.cmp] at h
  | coe r => exact ⟨r, rfl⟩

/-- Under the precondition every entry of the weight matrix is a real number. -/
theorem weight_real [hPre : Cert.Pre_finite_inputs.Facts]
    (x0 : (⟨Cert.Pre_finite_inputs.S4x2048x4096, .f32⟩ : BufTy).Contents (Elt Ideal))
    (x1 : (⟨Cert.Pre_finite_inputs.S4096x4096, .f32⟩ : BufTy).Contents (Elt Ideal))
    (x2 : (⟨Cert.Pre_finite_inputs.S4096, .f32⟩ : BufTy).Contents (Elt Ideal))
    (h : Cert.Pre_finite_inputs.fn (F := Ideal) x0 x1 x2 = (fun _ => 1#1)) : ∀ i, ∃ r : ℝ, x1 i = (r : EReal) := by
  intro i
  have e := congrFun h ValueIdx.ix0
  dsimp only [Cert.Pre_finite_inputs.fn] at e
  have e1 := (IntOp.andi_eq_one.1 e).1
  have e2 := (IntOp.andi_eq_one.1 e1).2
  have e3 := Host.reduce_andi_all _ _ _ _ _ e2 i
  exact real_of_abs_lt (x1 i) e3

/-- The same, at the kernel's launch memory: under the kernel's precondition the weight argument is real at every index. -/
theorem weight_real_of_pre [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg1) i = (r : EReal) :=
  weight_real _ _ _ (h c)

end Cert.Ternary.Finite

end
-- ==== Proof.lean ====
/-
  A linear layer whose weight matrix is first replaced, row by row, by a matrix of the three values 1, -1, 0.

  Row o of the weight W has the threshold t(o) = c * (|W(o,0)| + ... + |W(o,4095)|) / 4096, c the single-precision
  number nearest 7/10, and q(o, d) is 1 where W(o,d) > t(o), -1 where W(o,d) < -t(o), 0 elsewhere. The layer's value
  at (b, s, o) is the sum over d of x(b, s, d) * q(o, d), plus the bias B(o).

  The kernel computes q in one call over blocks of 512 rows (the threshold needs a whole row, and a block holds whole
  rows), then the products in a second call that cuts the sum over d into 8 slices of 512 and adds the slices' sums
  into the output block one after the other, from zero, the bias after the last. The reference computes q on the whole
  matrix, forms w + (q - w), contracts x with that over d in one sum, and adds the bias.

  On the extended reals the two agree: adding 8 slices' sums one after the other from zero is the sum over all 4096
  positions, because addition there is commutative and associative (also at the infinities); a negation written 0 - t is
  -t; and w + (q - w) = q whenever w is a real number, which the precondition (every input finite) gives for every
  entry of the weight. No other use of finiteness is made.

  The two kernel programs' frame conjuncts are the generated frame certificates; the reference's is its generated run with
  the result dropped; the idealization rewrote nothing, so its conjunct is `True`.
-/
import proofs.«105852_j74474732912767_2_alg».proof.Defs
import proofs.«105852_j74474732912767_2_alg».proof.Proof.Gen.Kernel
import proofs.«105852_j74474732912767_2_alg».proof.Proof.Gen.Kernel.Skeleton
import proofs.«105852_j74474732912767_2_alg».proof.Proof.Gen.Kernel.Launch
import proofs.«105852_j74474732912767_2_alg».proof.Proof.Gen.Kernel.Points
import proofs.«105852_j74474732912767_2_alg».proof.Proof.Gen.Kernel.Frame
import proofs.«105852_j74474732912767_2_alg».proof.Proof.Gen.KernelIdeal
import proofs.«105852_j74474732912767_2_alg».proof.Proof.Gen.KernelIdeal.Skeleton
import proofs.«105852_j74474732912767_2_alg».proof.Proof.Gen.KernelIdeal.Launch
import proofs.«105852_j74474732912767_2_alg».proof.Proof.Gen.KernelIdeal.Points
import proofs.«105852_j74474732912767_2_alg».proof.Proof.Gen.KernelIdeal.Frame
import proofs.«105852_j74474732912767_2_alg».proof.Proof.Gen.ReferenceIdeal
import proofs.«105852_j74474732912767_2_alg».proof.Proof.Gen.ReferenceIdeal.Run
import proofs.«105852_j74474732912767_2_alg».proof.Proof.Gen.ReferenceIdeal.Read
import proofs.«105852_j74474732912767_2_alg».proof.Proof.Gen.Pre_finite_inputs
import proofs.«105852_j74474732912767_2_alg».proof.Proof.KernelRun
import proofs.«105852_j74474732912767_2_alg».proof.Proof.HostGlue
import proofs.«105852_j74474732912767_2_alg».proof.Proof.RefValue
import proofs.«105852_j74474732912767_2_alg».proof.Proof.Finite
import Idealize.ShloMosaic.Adequacy
import Idealize.ShloMosaic.Init

noncomputable section

namespace Cert.Proof

open Idealize.ShloMosaic Idealize.SL.Sem

section
variable [hKernel : Cert.Kernel.Facts] [hKernelIdeal : Cert.KernelIdeal.Facts] [hReferenceIdeal : Cert.ReferenceIdeal.Facts]
  [hPre_finite_inputs : Cert.Pre_finite_inputs.Facts]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the specification's function of the (agreeing) arguments: the kernel by its run
    and the value of its two calls, the reference by its run read operation by operation, the weight's entries real
    numbers by the precondition. -/
theorem algebraic : Cert.algebraic_KernelIdeal_ReferenceIdeal := by
  intro m ρ m' ρ' hpre hagree
  refine ⟨fun c => Cert.Ternary.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Whole.result_eq m ρ c), (h c).2⟩)
      (Cert.KernelIdeal.Whole.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v20_eq, (hagree c).1, (hagree c).2.1, (hagree c).2.2]
    exact Cert.ReferenceIdeal.RefValue.ref_eq _ _ _ (Cert.Ternary.Finite.weight_real_of_pre m hpre c)

end

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
